-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x64 .f32) (main_arg6 : FVec F S64 .f32) (main_arg7 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S5000x64 : Shape := ⟨2, ![5000, 64]⟩

abbrev nBuf : Space → Nat
  | .hbm => 63
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000x64, .f32⟩
  | .hbm, ⟨34, _⟩ => ⟨S_, .f32⟩
  | .hbm, ⟨35, _⟩ => ⟨S100000x64, .f32⟩
  | .hbm, ⟨36, _⟩ => ⟨S1600000x1, .i32⟩
  | .hbm, ⟨37, _⟩ => ⟨S100000x64, .f32⟩
  | .hbm, ⟨38, _⟩ => ⟨S100000x64, .f32⟩
  | .hbm, ⟨39, _⟩ => ⟨S100000x64, .f32⟩
  | .hbm, ⟨40, _⟩ => ⟨S64x64, .f32⟩
  | .hbm, ⟨41, _⟩ => ⟨S64x64, .f32⟩
  | .hbm, ⟨42, _⟩ => ⟨S1x64, .f32⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S100000x64, .f32⟩
  | .hbm, ⟨58, _⟩ => ⟨S100000x64, .f32⟩
  | .hbm, ⟨59, _⟩ => ⟨S64x64, .f32⟩
  | .hbm, ⟨60, _⟩ => ⟨S64x64, .f32⟩
  | .hbm, ⟨61, _⟩ => ⟨S1x64, .f32⟩
  | .hbm, ⟨62, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S64x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  bitsLt_bf16_f32 : FTy.bits .bf16 < FTy.bits .f32
  broadcasts_S1x64_S5000x64 : S1x64.Broadcasts S5000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S100000x64.size a
  hwx0_5 : ∀ i : grid0.Coords, EltTy.bits .f32 = 32 ∨ (Rect.block (s := S100000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v26) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v28) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S_, .f32⟩
  | .hbm, ⟨28, _⟩ => ⟨S100000x64, .f32⟩
  | .hbm, ⟨29, _⟩ => ⟨S1600000x1, .i32⟩
  | .hbm, ⟨30, _⟩ => ⟨S100000x64, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S64x64, .f32⟩
  | .hbm, ⟨43, _⟩ => ⟨S100000x64, .f32⟩
  | .hbm, ⟨44, _⟩ => ⟨S100000x64, .f32⟩
  | .hbm, ⟨45, _⟩ => ⟨S_, .f32⟩
  | .hbm, ⟨46, _⟩ => ⟨S100000x64, .f32⟩
  | .hbm, ⟨47, _⟩ => ⟨S100000x64, .f32⟩
  | .hbm, ⟨48, _⟩ => ⟨S_, .f32⟩
  | .hbm, ⟨49, _⟩ => ⟨S1600000, .f32⟩
  | .hbm, ⟨50, _⟩ => ⟨S_, .f32⟩
  | .hbm, ⟨51, _⟩ => ⟨S100000, .f32⟩
  | .hbm, ⟨52, _⟩ => ⟨S1600000x1, .i32⟩
  | .hbm, ⟨53, _⟩ => ⟨S100000, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x64, .f32⟩
  | .hbm, ⟨63, _⟩ => ⟨S_, .f32⟩
  | .hbm, ⟨64, _⟩ => ⟨S100000x64, .f32⟩
  | .hbm, ⟨65, _⟩ => ⟨S1600000x1, .i32⟩
  | .hbm, ⟨66, _⟩ => ⟨S100000x64, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S64x64, .f32⟩
  | .hbm, ⟨79, _⟩ => ⟨S100000x64, .f32⟩
  | .hbm, ⟨80, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_cst_4 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_6 : Ref sig .tc := ⟨.hbm, 54, rfl⟩
abbrev main_v36 : Ref sig .tc := ⟨.hbm, 55, rfl⟩
abbrev main_v37 : Ref sig .tc := ⟨.hbm, 56, rfl⟩
abbrev main_c_7 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/- The run of the idealized kernel program with its RESULT named.

   The generated frame certificate proves that every weakly fair execution of @main terminates without a fault and
   that the argument arrays end as launched. Its launch already establishes more: at the end every unscoped buffer
   holds the last boundary's contents `W4`. Here the same run is read once more, at the result buffer `main_v44`,
   so that the final state's result is `W4` at that buffer; the arguments are read as before. -/
import proofs.«109792_j10926396801112_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the launch lemma's implicit arguments are found by unifying its conclusion with this one, which takes unfolding
-- plain definitions in a metavariable's type
set_option backward.isDefEq.respectTransparency.types false in
/-- From any memory with zero counters, every weakly fair execution of @main on the TensorCores terminates, nothing
    faulting, and in every final state the result buffer `main_v44` holds the last boundary's contents `W4` at it,
    and each argument array is as launched. The launch runs over the frame certificate's segments, proof data and
    thread states; at the end every unscoped buffer holds `W4`'s contents, which is read at the result buffer (an
    unscoped buffer) and, through the fold, at each argument. -/
theorem run_named (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v44) = W4 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v44 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Hand

end
-- ==== Proof.HostValue.lean ====
/- The host stretches of the idealized kernel program as terms of its arguments.

   Between the launch and the first region, and between the two regions, the program runs StableHLO operations only.
   Each region's windows read arrays those operations produced. Here the contents of each such array at the region's
   entry are written as the operations' composed term of the argument arrays (and, for the second stretch, of the
   first region's result): the mean aggregation over incoming edges (a gather of rows at the wrapped source index, a
   scatter-add at the destination index, the product with the reciprocal of the clamped in-degree), the transposed
   weight matrices and the bias as a one-row matrix. -/
import proofs.«109792_j10926396801112_1_alg».proof.Proof.Gen.KernelIdeal.Frame
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo

variable {F : FTy → Type} [FloatOps F]

/-! ## The aggregation's terms -/

section Terms

variable (e : (⟨S2x1600000, .i32⟩ : BufTy).Contents (Elt F)) (y : (⟨S100000x64, .f32⟩ : BufTy).Contents (Elt F))

/-- The edges' source indices: row 0 of the edge list, as a vector. -/
def srcOf : (⟨S1600000, .i32⟩ : BufTy).Contents (Elt F) :=
  shapeCast _ (extractStridedSlice S1x1600000 ![0, 0] e slices_S2x1600000_S1x1600000_0_0) shapeCasts_S1x1600000_S1600000

/-- The edges' destination indices: row 1 of the edge list, as a vector. -/
def dstOf : (⟨S1600000, .i32⟩ : BufTy).Contents (Elt F) :=
  shapeCast _ (extractStridedSlice S1x1600000 ![1, 0] e slices_S2x1600000_S1x1600000_1_0) shapeCasts_S1x1600000_S1600000

/-- The source indices with a negative index counted from the end (the node count added). -/
def srcWrapped : (⟨S1600000, .i32⟩ : BufTy).Contents (Elt F) :=
  select (cmpi .slt (srcOf e) (broadcastInDim S1600000 ![] bcast_S_S1600000 (constantI S_ 32 0#32))) (addi (srcOf e) (broadcastInDim S1600000 ![] bcast_S_S1600000 (constantI S_ 32 100000#32))) (srcOf e)

/-- The in-degree of every node: ones scatter-added at the destination indices. -/
def degOf : (⟨S100000, .f32⟩ : BufTy).Contents (Elt F) :=
  Host.scatterAdd scatter_S100000_S1600000x1_S1600000_n_0_0_1 (broadcastInDim S100000 ![] bcast_S_S100000 (constant S_ .f32 0x00000000#32)) (broadcastInDim S1600000x1 ![0] bcast_S1600000_S1600000x1_0 (dstOf e)) (broadcastInDim S1600000 ![] bcast_S_S1600000 (constant S_ .f32 0x3F800000#32))

/-- The sum, per node, of the rows of `y` at its incoming edges' sources. -/
def sumsOf : (⟨S100000x64, .f32⟩ : BufTy).Contents (Elt F) :=
  Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (dstOf e)) (Host.gather gather_S100000x64_S1600000x1_S1600000x64_1_0_n_n_0_1_164 y (broadcastInDim S1600000x1 ![0] bcast_S1600000_S1600000x1_0 (srcWrapped e)))

/-- The sums times the reciprocal of the in-degree clamped below at one, as the program multiplies them. -/
def normedK : (⟨S100000x64, .f32⟩ : BufTy).Contents (Elt F) :=
  mulf (sumsOf e y) (broadcastInDim S100000x64 ![0, 1] bcast_S100000x1_S100000x64_0_1 (broadcastInDim S100000x1 ![0] bcast_S100000_S100000x1_0 (Host.divf (broadcastInDim S100000 ![] bcast_S_S100000 (constant S_ .f32 0x3F800000#32)) (maximumf (degOf e) (broadcastInDim S100000 ![] bcast_S_S100000 (constant S_ .f32 0x3F800000#32))))))

end Terms

/-! ## The two stretches, from any contents `V`

What each stretch leaves in the buffers the regions read, as the operations' composed term of what `V` holds at the
buffers the stretch reads and does not itself write. -/

section Stretches

variable (V : Valuation τ sig (Elt F))

/-! ### The first stretch -/

/-- No operation of the first stretch writes an argument array. -/
theorem after0_arg0 : StableHlo.after hostOps0 V (Proc.devRef .tc main_arg0) = V (Proc.devRef .tc main_arg0) := by
  dsimp only [hostOps0]
  after_results_simp <;> rfl
theorem after0_arg5 : StableHlo.after hostOps0 V (Proc.devRef .tc main_arg5) = V (Proc.devRef .tc main_arg5) := by
  dsimp only [hostOps0]
  after_results_simp <;> rfl
theorem after0_arg6 : StableHlo.after hostOps0 V (Proc.devRef .tc main_arg6) = V (Proc.devRef .tc main_arg6) := by
  dsimp only [hostOps0]
  after_results_simp <;> rfl
theorem after0_arg7 : StableHlo.after hostOps0 V (Proc.devRef .tc main_arg7) = V (Proc.devRef .tc main_arg7) := by
  dsimp only [hostOps0]
  after_results_simp <;> rfl

set_option maxHeartbeats 4000000 in
/-- The source indices. -/
theorem after0_v1 : (StableHlo.after hostOps0 V (Proc.devRef .tc main_v1) : S1600000.Idx → Elt F .i32)
    = srcOf (V (Proc.devRef .tc main_arg1)) := by
  dsimp only [hostOps0]
  after_results_simp
  unfold srcOf
  rfl

set_option maxHeartbeats 4000000 in
/-- The destination indices. -/
theorem after0_v3 : (StableHlo.after hostOps0 V (Proc.devRef .tc main_v3) : S1600000.Idx → Elt F .i32)
    = dstOf (V (Proc.devRef .tc main_arg1)) := by
  dsimp only [hostOps0]
  after_results_simp
  unfold dstOf
  rfl

set_option maxHeartbeats 4000000 in
/-- The reciprocal of the clamped in-degree, as a column. -/
theorem after0_v12 : (StableHlo.after hostOps0 V (Proc.devRef .tc main_v12) : S100000x1.Idx → Elt F .f32)
    = broadcastInDim S100000x1 ![0] bcast_S100000_S100000x1_0 (Host.divf (broadcastInDim S100000 ![] bcast_S_S100000 (constant S_ .f32 0x3F800000#32)) (maximumf (degOf (V (Proc.devRef .tc main_arg1))) (broadcastInDim S100000 ![] bcast_S_S100000 (constant S_ .f32 0x3F800000#32)))) := by
  dsimp only [hostOps0]
  after_results_simp
  unfold degOf dstOf
  rfl

set_option maxHeartbeats 4000000 in
/-- The mean aggregation of the node features. -/
theorem after0_v24 : (StableHlo.after hostOps0 V (Proc.devRef .tc main_v24) : S100000x64.Idx → Elt F .f32)
    = normedK (V (Proc.devRef .tc main_arg1)) (V (Proc.devRef .tc main_arg0)) := by
  dsimp only [hostOps0]
  after_results_simp
  unfold normedK sumsOf degOf srcWrapped srcOf dstOf
  rfl

set_option maxHeartbeats 4000000 in
theorem after0_v25 : (StableHlo.after hostOps0 V (Proc.devRef .tc main_v25) : S64x64.Idx → Elt F .f32)
    = transpose S64x64 [1, 0] (V (Proc.devRef .tc main_arg2)) transposes_S64x64_S64x64_1_0 := by
  dsimp only [hostOps0]
  after_results_simp <;> rfl

set_option maxHeartbeats 4000000 in
theorem after0_v26 : (StableHlo.after hostOps0 V (Proc.devRef .tc main_v26) : S64x64.Idx → Elt F .f32)
    = transpose S64x64 [1, 0] (V (Proc.devRef .tc main_arg4)) transposes_S64x64_S64x64_1_0 := by
  dsimp only [hostOps0]
  after_results_simp <;> rfl

set_option maxHeartbeats 4000000 in
theorem after0_v27 : (StableHlo.after hostOps0 V (Proc.devRef .tc main_v27) : S1x64.Idx → Elt F .f32)
    = shapeCast _ (V (Proc.devRef .tc main_arg3)) shapeCasts_S64_S1x64 := by
  dsimp only [hostOps0]
  after_results_simp <;> rfl

/-! ### The second stretch -/

/-- No operation of the second stretch writes the first region's result. -/
theorem after1_v28 : StableHlo.after hostOps1 V (Proc.devRef .tc main_v28) = V (Proc.devRef .tc main_v28) := by
  dsimp only [hostOps1]
  after_results_simp <;> rfl

set_option maxHeartbeats 4000000 in
/-- The mean aggregation of the first region's result, over the index vectors and the reciprocal column the first
    stretch left. -/
theorem after1_v40 : (StableHlo.after hostOps1 V (Proc.devRef .tc main_v40) : S100000x64.Idx → Elt F .f32)
    = mulf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (V (Proc.devRef .tc main_v3))) (Host.gather gather_S100000x64_S1600000x1_S1600000x64_1_0_n_n_0_1_164 (V (Proc.devRef .tc main_v28)) (broadcastInDim S1600000x1 ![0] bcast_S1600000_S1600000x1_0 (select (cmpi .slt (V (Proc.devRef .tc main_v1)) (broadcastInDim S1600000 ![] bcast_S_S1600000 (constantI S_ 32 0#32))) (addi (V (Proc.devRef .tc main_v1)) (broadcastInDim S1600000 ![] bcast_S_S1600000 (constantI S_ 32 100000#32))) (V (Proc.devRef .tc main_v1))))))
        (broadcastInDim S100000x64 ![0, 1] bcast_S100000x1_S100000x64_0_1 (V (Proc.devRef .tc main_v12))) := by
  dsimp only [hostOps1]
  after_results_simp <;> rfl

set_option maxHeartbeats 4000000 in
theorem after1_v41 : (StableHlo.after hostOps1 V (Proc.devRef .tc main_v41) : S64x64.Idx → Elt F .f32)
    = transpose S64x64 [1, 0] (V (Proc.devRef .tc main_arg5)) transposes_S64x64_S64x64_1_0 := by
  dsimp only [hostOps1]
  after_results_simp <;> rfl

set_option maxHeartbeats 4000000 in
theorem after1_v42 : (StableHlo.after hostOps1 V (Proc.devRef .tc main_v42) : S64x64.Idx → Elt F .f32)
    = transpose S64x64 [1, 0] (V (Proc.devRef .tc main_arg7)) transposes_S64x64_S64x64_1_0 := by
  dsimp only [hostOps1]
  after_results_simp <;> rfl

set_option maxHeartbeats 4000000 in
theorem after1_v43 : (StableHlo.after hostOps1 V (Proc.devRef .tc main_v43) : S1x64.Idx → Elt F .f32)
    = shapeCast _ (V (Proc.devRef .tc main_arg6)) shapeCasts_S64_S1x64 := by
  dsimp only [hostOps1]
  after_results_simp <;> rfl

end Stretches

/-! ## The first region's entry contents -/

variable (m : (ℓ : Loc nD τ sig) → Buf (Elt F) ℓ) (ρ : Dev nD → PrngReg) (c : Dev nD)

/-- The node features as launched. -/
theorem V1_arg0 : V1 m ρ c main_arg0 = m ((c : Thread nD τ).loc main_arg0) :=
  after0_arg0 (W0 m ρ c)

/-- The mean aggregation of the node features over the edge list. -/
theorem V1_v24 : V1 m ρ c main_v24 = normedK (m ((c : Thread nD τ).loc main_arg1)) (m ((c : Thread nD τ).loc main_arg0)) :=
  after0_v24 (W0 m ρ c)

theorem V1_v25 : V1 m ρ c main_v25 = transpose S64x64 [1, 0] (m ((c : Thread nD τ).loc main_arg2)) transposes_S64x64_S64x64_1_0 :=
  after0_v25 (W0 m ρ c)

theorem V1_v26 : V1 m ρ c main_v26 = transpose S64x64 [1, 0] (m ((c : Thread nD τ).loc main_arg4)) transposes_S64x64_S64x64_1_0 :=
  after0_v26 (W0 m ρ c)

theorem V1_v27 : V1 m ρ c main_v27 = shapeCast _ (m ((c : Thread nD τ).loc main_arg3)) shapeCasts_S64_S1x64 :=
  after0_v27 (W0 m ρ c)

/-! ## The second region's entry contents

At the first region's exit its result array holds what the pipeline leaves and every buffer the region has no
window on holds what the first stretch left there; the second stretch then runs from these. -/

/-- The first region's result, as its pipeline leaves it: the second stretch does not write it. -/
theorem V3_v28 : V3 m ρ c main_v28 = (dat0 (V1 m ρ) c).arrAt 5 cfg0.N :=
  (after1_v28 (W2 m ρ c)).trans (W2_arr m ρ c 5)

/-- The source indices at the first region's exit: the region has no window on them. -/
theorem W2_v1 : (W2 m ρ c (Proc.devRef .tc main_v1) : S1600000.Idx → Elt F .i32) = srcOf (m ((c : Thread nD τ).loc main_arg1)) :=
  (W2_of_ne m ρ c main_v1 (by decide)).trans (after0_v1 (W0 m ρ c))

/-- The destination indices at the first region's exit. -/
theorem W2_v3 : (W2 m ρ c (Proc.devRef .tc main_v3) : S1600000.Idx → Elt F .i32) = dstOf (m ((c : Thread nD τ).loc main_arg1)) :=
  (W2_of_ne m ρ c main_v3 (by decide)).trans (after0_v3 (W0 m ρ c))

/-- The reciprocal of the clamped in-degree, as a column, at the first region's exit. -/
theorem W2_v12 : (W2 m ρ c (Proc.devRef .tc main_v12) : S100000x1.Idx → Elt F .f32)
    = broadcastInDim S100000x1 ![0] bcast_S100000_S100000x1_0 (Host.divf (broadcastInDim S100000 ![] bcast_S_S100000 (constant S_ .f32 0x3F800000#32)) (maximumf (degOf (m ((c : Thread nD τ).loc main_arg1))) (broadcastInDim S100000 ![] bcast_S_S100000 (constant S_ .f32 0x3F800000#32)))) :=
  (W2_of_ne m ρ c main_v12 (by decide)).trans (after0_v12 (W0 m ρ c))

/-- The second layer's parameters at the first region's exit: as launched. -/
theorem W2_arg5 : W2 m ρ c (Proc.devRef .tc main_arg5) = m ((c : Thread nD τ).loc main_arg5) :=
  (W2_of_ne m ρ c main_arg5 (by decide)).trans (after0_arg5 (W0 m ρ c))
theorem W2_arg6 : W2 m ρ c (Proc.devRef .tc main_arg6) = m ((c : Thread nD τ).loc main_arg6) :=
  (W2_of_ne m ρ c main_arg6 (by decide)).trans (after0_arg6 (W0 m ρ c))
theorem W2_arg7 : W2 m ρ c (Proc.devRef .tc main_arg7) = m ((c : Thread nD τ).loc main_arg7) :=
  (W2_of_ne m ρ c main_arg7 (by decide)).trans (after0_arg7 (W0 m ρ c))

/-- The mean aggregation of the first region's result over the same edge list. -/
theorem V3_v40 : V3 m ρ c main_v40 = normedK (m ((c : Thread nD τ).loc main_arg1)) (V3 m ρ c main_v28) := by
  have h28 : W2 m ρ c (Proc.devRef .tc main_v28) = V3 m ρ c main_v28 := (after1_v28 (W2 m ρ c)).symm
  show (StableHlo.after hostOps1 (W2 m ρ c) (Proc.devRef .tc main_v40) : S100000x64.Idx → Elt F .f32) = _
  rw [after1_v40, W2_v1, W2_v3, W2_v12, h28]
  generalize V3 m ρ c main_v28 = y
  unfold normedK sumsOf srcWrapped
  rfl

theorem V3_v41 : V3 m ρ c main_v41 = transpose S64x64 [1, 0] (m ((c : Thread nD τ).loc main_arg5)) transposes_S64x64_S64x64_1_0 := by
  show (StableHlo.after hostOps1 (W2 m ρ c) (Proc.devRef .tc main_v41) : S64x64.Idx → Elt F .f32) = _
  rw [after1_v41, W2_arg5]

theorem V3_v42 : V3 m ρ c main_v42 = transpose S64x64 [1, 0] (m ((c : Thread nD τ).loc main_arg7)) transposes_S64x64_S64x64_1_0 := by
  show (StableHlo.after hostOps1 (W2 m ρ c) (Proc.devRef .tc main_v42) : S64x64.Idx → Elt F .f32) = _
  rw [after1_v42, W2_arg7]

theorem V3_v43 : V3 m ρ c main_v43 = shapeCast _ (m ((c : Thread nD τ).loc main_arg6)) shapeCasts_S64_S1x64 := by
  show (StableHlo.after hostOps1 (W2 m ρ c) (Proc.devRef .tc main_v43) : S1x64.Idx → Elt F .f32) = _
  rw [after1_v43, W2_arg6]

end Cert.KernelIdeal.Hand

end
-- ==== Proof.LibProductIx.lean ====
/-
  A matrix product read at an entry, with the operand indices written by their coordinates.

  Two arrangements of dimension numbers, no batch axis in either:
  * [A, K] × [K, B] → [A, B], contracting the left factor's axis 1 with the right factor's axis 0:
    the sum over the contraction index at (p, q) is Σ_{k<K} l(p, k) · r(k, q);
  * [A, S, K] × [B, K] → [A, S, B], contracting the left factor's last axis with the right factor's axis 1 (the
    right factor used by rows: x · Wᵀ on every row of a stack of rows): the sum at (a, s, b) is
    Σ_{k<K} l(a, s, k) · r(b, k).
  So a product into a zero accumulator or a host dot_general is that sum, and reads one row of each factor.
  General: nothing here depends on a particular program. An instance supplies the kept coordinates (`hl0`, `hr1`, …: each is
  `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.LibProductIx

open Idealize.ShloMosaic Idealize.ShloMosaic.ValueIdx

/-- [A, K] × [K, B]: the sum over the contraction index at (p, q) is Σ_k l(p, k) · r(k, q). -/
theorem sum_rows_cols {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k :=
    funext fun a => Fin.ext (by
      match a with
      | ⟨0, _⟩ => exact hl0 (ix2 p q) _
      | ⟨1, _⟩ => exact (d.lhsIdx_val_of_single hlc (ix2 p q) _).trans hk)
  have er : d.rhsIdx (ix2 p q) ((contrEquiv1 d K hr hs).symm k) = ix2 k q :=
    funext fun a => Fin.ext (by
      match a with
      | ⟨0, _⟩ => exact (d.rhsIdx_val_of_single hrc (ix2 p q) _).trans hk
      | ⟨1, _⟩ => exact hr1 (ix2 p q) _)
  rw [el, er]

/-- [A, S, K] × [B, K]: the sum over the contraction index at (a, s, b) is Σ_k l(a, s, k) · r(b, k). -/
theorem sum_stack_rows {A S B K : Nat} {φ₁ φ₂ : FTy}
    (d : DotDims (⟨3, ![A, S, K]⟩ : Shape) (⟨2, ![B, K]⟩ : Shape) (⟨3, ![A, S, B]⟩ : Shape))
    (hr : d.contr.rank = 1) (hs : d.contr.size ⟨0, by omega⟩ = K)
    (hlc : d.lhsContracting = [(2 : Fin 3)]) (hrc : d.rhsContracting = [(1 : Fin 2)])
    (hl0 : ∀ (j : (⟨3, ![A, S, B]⟩ : Shape).Idx) (q : d.contr.Idx), (d.lhsIdx j q 0).val = (j 0).val)
    (hl1 : ∀ (j : (⟨3, ![A, S, B]⟩ : Shape).Idx) (q : d.contr.Idx), (d.lhsIdx j q 1).val = (j 1).val)
    (hr0 : ∀ (j : (⟨3, ![A, S, B]⟩ : Shape).Idx) (q : d.contr.Idx), (d.rhsIdx j q 0).val = (j 2).val)
    (l : FVec Ideal (⟨3, ![A, S, K]⟩ : Shape) φ₁) (r : FVec Ideal (⟨2, ![B, K]⟩ : Shape) φ₂) (a : Fin A) (s : Fin S) (b : Fin B) :
    ∑ c : d.contr.Idx, l (d.lhsIdx (ix3 a s b) c) * r (d.rhsIdx (ix3 a s b) c) = ∑ k : Fin K, l (ix3 a s k) * r (ix2 b k) := by
  rw [← Equiv.sum_comp (contrEquiv1 d K hr hs).symm]
  refine Finset.sum_congr rfl fun k _ => ?_
  have hk := contrEquiv1_symm_val d K hr hs k
  have el : d.lhsIdx (ix3 a s b) ((contrEquiv1 d K hr hs).symm k) = ix3 a s k :=
    funext fun c => Fin.ext (by
      match c with
      | ⟨0, _⟩ => exact hl0 (ix3 a s b) _
      | ⟨1, _⟩ => exact hl1 (ix3 a s b) _
      | ⟨2, _⟩ => exact (d.lhsIdx_val_of_single hlc (ix3 a s b) _).trans hk)
  have er : d.rhsIdx (ix3 a s b) ((contrEquiv1 d K hr hs).symm k) = ix2 b k :=
    funext fun c => Fin.ext (by
      match c with
      | ⟨0, _⟩ => exact hr0 (ix3 a s b) _
      | ⟨1, _⟩ => exact (d.rhsIdx_val_of_single hrc (ix3 a s b) _).trans hk)
  rw [el, er]

end Cert.LibProductIx

end
-- ==== Proof.LibPlainDot.lean ====
/-
  A product of two matrices whose dimension numbers are the plain ones — no batch axis, the left factor's axis 1
  contracted with the right factor's axis 0, the kept axes the left factor's rows and the right factor's columns —
  read at an entry (p, q): into the zero accumulator it is Σ_k l(p,k) · r(k,q). The two facts a reading needs about
  the kept coordinates (the left factor is read in row p, the right factor in column q) are proved here once from the
  dimension numbers' lists, for any record with those lists.
  General: nothing here depends on a particular program.
-/
import proofs.«109792_j10926396801112_1_alg».proof.Proof.LibProductIx

noncomputable section

open scoped BigOperators

namespace Cert.LibPlainDot

open Idealize.ShloMosaic Idealize.ShloMosaic.ValueIdx

variable {A B K : Nat}

/-- The left factor is read in the row of the result's entry. -/
theorem lhs_row (d : DotDims (⟨2, ![A, K]⟩ : Shape) (⟨2, ![K, B]⟩ : Shape) (⟨2, ![A, B]⟩ : Shape))
    (hlb : d.lhsBatch = []) (hln : d.lhsNonContracting = [(0 : Fin 2)])
    (j : (⟨2, ![A, B]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln])

/-- The right factor is read in the column of the result's entry. -/
theorem rhs_col (d : DotDims (⟨2, ![A, K]⟩ : Shape) (⟨2, ![K, B]⟩ : Shape) (⟨2, ![A, B]⟩ : Shape))
    (hlb : d.lhsBatch = []) (hln : d.lhsNonContracting = [(0 : Fin 2)])
    (hrb : d.rhsBatch = []) (hrn : d.rhsNonContracting = [(1 : Fin 2)])
    (j : (⟨2, ![A, B]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln, hrn])

/-- The contraction sum of a plain product at (p, q). -/
theorem sum_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) :=
  Cert.LibProductIx.sum_rows_cols d hr hs hlc hrc (lhs_row d hlb hln) (rhs_col d hlb hln hrb hrn) l r p q

/-- A plain product into the zero accumulator, at (p, q). -/
theorem matmul_zero_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (⟨2, ![A, B]⟩ : Shape) .f32 0x00000000#32) (ix2 p q)
      = ∑ k : Fin K, l (ix2 p k) * r (ix2 k q) := by
  rw [Ideal.matmul_constant_zero_apply]
  exact sum_at d hr hs hlc hrc hlb hln hrb hrn l r p q

/-- A host product with the plain dimension numbers, at (p, q). -/
theorem dotGeneral_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision) (sched : HostSchedule)
    (l : FVec Ideal (⟨2, ![A, K]⟩ : Shape) φ₁) (r : FVec Ideal (⟨2, ![K, B]⟩ : Shape) φ₂) (p : Fin A) (q : Fin B) :
    FloatOps.dotGeneral d prec sched l r (ix2 p q) = ∑ k : Fin K, l (ix2 p k) * r (ix2 k q) := by
  rw [Ideal.dotGeneral_apply]
  exact sum_at d hr hs hlc hrc hlb hln hrb hrn l r p q

end Cert.LibPlainDot

end
-- ==== Proof.BodyValue.lean ====
/-
  What one grid point of the dense-layer kernel computes, entry by entry.

  A grid point holds a block of 5000 node rows. From the block x of the nodes' own features, the block a of their
  normalized aggregates, the two 64×64 weight matrices wl, wr (already transposed, so that a row of features meets a
  COLUMN of weights) and the bias row b, the body forms  a·wl + x·wr + b  and, in the first layer, clamps it at zero.
  Rounding the factors to bfloat16 changes nothing on the extended reals, and a product accumulated from zero is the
  plain sum over the 64 contracted features. So at row p of the block and output feature q the body's value is
      (Σ_k a(p,k)·wl(k,q) + Σ_k x(p,k)·wr(k,q)) + b(0,q),
  clamped or not.
-/
import proofs.«109792_j10926396801112_1_alg».proof.Proof.Gen.KernelIdeal.Skeleton
import proofs.«109792_j10926396801112_1_alg».proof.Proof.LibPlainDot
import Idealize.ShloMosaic.Lib.Pipeline.Value
import Idealize.ShloMosaic.Lib.ValueIdx
import Idealize.ShloMosaic.Lib.ValueLayout

noncomputable section

open scoped BigOperators

namespace Cert.KernelIdeal.Body

open Cert.KernelIdeal Cert.KernelIdeal.Gen Idealize.ShloMosaic Idealize.ShloMosaic.ValueIdx

variable [Cert.KernelIdeal.Facts]

/-- A block of rows times a weight matrix, accumulated from zero, at (p, q): the sum over the contracted feature. -/
theorem product_at (l : FVec Ideal S5000x64 .bf16) (r : FVec Ideal S64x64 .bf16) (p : Fin 5000) (q : Fin 64) :
    matmul dot_S5000x64_S64x64_S5000x64_1_0_0_1_n_n none l r (constant S5000x64 .f32 0x00000000#32) (ix2 p q)
      = ∑ k : Fin 64, l (ix2 p k) * r (ix2 k q) :=
  Cert.LibPlainDot.matmul_zero_at dot_S5000x64_S64x64_S5000x64_1_0_0_1_n_n rfl rfl rfl rfl rfl rfl rfl rfl none l r p q

/-- The first layer's body at (p, q). -/
theorem pay0_at (x0 x1 : Vec Ideal S5000x64 .f32) (x2 x3 : Vec Ideal S64x64 .f32) (x4 : Vec Ideal S1x64 .f32)
    (p : Fin 5000) (q : Fin 64) :
    k0_pay1 (F := Ideal) x0 x1 x2 x3 x4 (ix2 p q)
      = max ((∑ k : Fin 64, x1 (ix2 p k) * x2 (ix2 k q) + ∑ k : Fin 64, x0 (ix2 p k) * x3 (ix2 k q)) + x4 (ix2 (0 : Fin 1) q))
          (Ideal.ofBits .f32 0x00000000#32) := by
  unfold k0_pay1
  simp only [shapeCast_self]
  rw [maximumf_apply, addf_apply, addf_apply, product_at, product_at, broadcastTo_1b_ab_apply]
  rfl

/-- The second layer's body at (p, q): the same, not clamped. -/
theorem pay1_at (x0 x1 : Vec Ideal S5000x64 .f32) (x2 x3 : Vec Ideal S64x64 .f32) (x4 : Vec Ideal S1x64 .f32)
    (p : Fin 5000) (q : Fin 64) :
    k1_pay1 (F := Ideal) x0 x1 x2 x3 x4 (ix2 p q)
      = (∑ k : Fin 64, x1 (ix2 p k) * x2 (ix2 k q) + ∑ k : Fin 64, x0 (ix2 p k) * x3 (ix2 k q)) + x4 (ix2 (0 : Fin 1) q) := by
  unfold k1_pay1
  simp only [shapeCast_self]
  rw [addf_apply, addf_apply, product_at, product_at, broadcastTo_1b_ab_apply]
  rfl

end Cert.KernelIdeal.Body

end
-- ==== Proof.RegionValue.lean ====
/-
  What each of the two kernel regions leaves in its result array, as ONE function of the arrays the region finds.

  A region walks 20 grid points; point t holds rows 5000·t … 5000·t + 4999 of the node arrays (all 64 features), the
  two weight matrices and the bias row whole, computes the body on them and writes its block of 5000 rows back to
  the same rows of the result. The 20 blocks tile the 100000 rows, so the result array ends holding, at node n and
  feature q,
      (Σ_k a(n,k)·wl(k,q) + Σ_k x(n,k)·wr(k,q)) + b(0,q)
  (clamped at zero in the first region): the body's entry at row n − 5000·t of block t = n / 5000.
-/
import proofs.«109792_j10926396801112_1_alg».proof.Proof.Gen.KernelIdeal.Frame
import proofs.«109792_j10926396801112_1_alg».proof.Proof.BodyValue
import Idealize.ShloMosaic.Lib.Pipeline.Value
import Idealize.ShloMosaic.Lib.ValueIdx
import Idealize.ShloMosaic.Lib.Tactic

set_option maxRecDepth 16384

noncomputable section

open scoped BigOperators

open Idealize.ShloMosaic Idealize.ShloMosaic.TcCoe Idealize.SL.Sem Idealize.ShloMosaic.ValueIdx
open Idealize.ShloMosaic.Pipeline (Dat)

namespace Cert.KernelIdeal.Region

open Cert.KernelIdeal Cert.KernelIdeal.Gen Cert.KernelIdeal.Body

/-- A dense layer over whole arrays, the weights by columns and the bias as a row: entry (n, q). -/
def lin (x a : S100000x64.Idx → EReal) (wl wr : S64x64.Idx → EReal) (b : S1x64.Idx → EReal) : S100000x64.Idx → EReal :=
  fun i => (∑ k : Fin 64, a (ix2 (i 0) k) * wl (ix2 k (i 1)) + ∑ k : Fin 64, x (ix2 (i 0) k) * wr (ix2 k (i 1)))
    + b (ix2 (0 : Fin 1) (i 1))

/-- The same clamped at the f32 zero from below. -/
def linClamped (x a : S100000x64.Idx → EReal) (wl wr : S64x64.Idx → EReal) (b : S1x64.Idx → EReal) : S100000x64.Idx → EReal :=
  fun i => max (lin x a wl wr b i) (Ideal.ofBits .f32 0x00000000#32)

theorem hz : (![0, 0] : Fin 2 → Nat) = fun _ => 0 := funext fun a => by fin_cases a <;> rfl

/-- Block tv of the layer: if the point's node blocks are rows 5000·tv … of the whole arrays and its weight and bias
    blocks are the whole arrays, the body's entry j of the block is the layer's entry at row 5000·tv + j₀, column j₁. -/
theorem block_clamped (x0 x1 : Vec Ideal S5000x64 .f32) (x2 x3 : Vec Ideal S64x64 .f32) (x4 : Vec Ideal S1x64 .f32)
    (X A : S100000x64.Idx → EReal) (WL WR : S64x64.Idx → EReal) (B : S1x64.Idx → EReal) (tv : Nat) (htv : tv < 20)
    (h0 : ∀ (p : Fin 5000) (k : Fin 64), x0 (ix2 p k) = X (ix2 (⟨tv * 5000 + p.val, by have := p.isLt; omega⟩ : Fin 100000) k))
    (h1 : ∀ (p : Fin 5000) (k : Fin 64), x1 (ix2 p k) = A (ix2 (⟨tv * 5000 + p.val, by have := p.isLt; omega⟩ : Fin 100000) k))
    (h2 : x2 = WL) (h3 : x3 = WR) (h4 : x4 = B)
    (j : S5000x64.Idx) (i : S100000x64.Idx) (hi0 : (i 0).val = tv * 5000 + (j 0).val) (hi1 : (i 1).val = (j 1).val) :
    k0_pay1 (F := Ideal) x0 x1 x2 x3 x4 j = linClamped X A WL WR B i := by
  obtain ⟨p, q, rfl⟩ : ∃ (p : Fin 5000) (q : Fin 64), j = ix2 p q := ⟨j 0, j 1, eq_ix2 j⟩
  rw [pay0_at]
  unfold linClamped lin
  have hr : i 0 = (⟨tv * 5000 + p.val, by have := p.isLt; omega⟩ : Fin 100000) := Fin.ext hi0
  have hc : i 1 = q := Fin.ext hi1
  rw [hr, hc]
  subst h2 h3 h4
  simp only [h0, h1]

/-- The same for the layer that does not clamp. -/
theorem block_plain (x0 x1 : Vec Ideal S5000x64 .f32) (x2 x3 : Vec Ideal S64x64 .f32) (x4 : Vec Ideal S1x64 .f32)
    (X A : S100000x64.Idx → EReal) (WL WR : S64x64.Idx → EReal) (B : S1x64.Idx → EReal) (tv : Nat) (htv : tv < 20)
    (h0 : ∀ (p : Fin 5000) (k : Fin 64), x0 (ix2 p k) = X (ix2 (⟨tv * 5000 + p.val, by have := p.isLt; omega⟩ : Fin 100000) k))
    (h1 : ∀ (p : Fin 5000) (k : Fin 64), x1 (ix2 p k) = A (ix2 (⟨tv * 5000 + p.val, by have := p.isLt; omega⟩ : Fin 100000) k))
    (h2 : x2 = WL) (h3 : x3 = WR) (h4 : x4 = B)
    (j : S5000x64.Idx) (i : S100000x64.Idx) (hi0 : (i 0).val = tv * 5000 + (j 0).val) (hi1 : (i 1).val = (j 1).val) :
    k1_pay1 (F := Ideal) x0 x1 x2 x3 x4 j = lin X A WL WR B i := by
  obtain ⟨p, q, rfl⟩ : ∃ (p : Fin 5000) (q : Fin 64), j = ix2 p q := ⟨j 0, j 1, eq_ix2 j⟩
  rw [pay1_at]
  unfold lin
  have hr : i 0 = (⟨tv * 5000 + p.val, by have := p.isLt; omega⟩ : Fin 100000) := Fin.ext hi0
  have hc : i 1 = q := Fin.ext hi1
  rw [hr, hc]
  subst h2 h3 h4
  simp only [h0, h1]

variable (V : (c : Dev nD) → (b : Ref sig .tc) → Buf (Elt Ideal) ((c : Thread nD τ).loc b))

/-! ## Region 0 -/

/-- The block of each window at point t: the node arrays' and the result's block is t along the rows, the weights'
    and the bias's the one whole block. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem flushed0_eq (c : Dev nD) (t : Fin cfg0.N) :
    (dat0 V c).flushed 5 t = ((cfg0.win 5).blk t).view.read (Elt Ideal)
      (linClamped (V c main_arg0) (V c main_v24) (V c main_v25) (V c main_v26) (V c main_v27)) := by
  show (cfg0.win 5).cut (grid0.coords t) ((dat0 V c).after 5 t) = _
  rw [after0_5]
  unfold out0_5
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41, e50, e51⟩ := idx_facts0 t
  have ht : t.val < 20 := t.isLt
  funext j
  show k0_pay1 (iblk0 V c 0 t) (iblk0 V c 1 t) (iblk0 V c 2 t) (iblk0 V c 3 t) (iblk0 V c 4 t) j
    = linClamped (V c main_arg0) (V c main_v24) (V c main_v25) (V c main_v26) (V c main_v27) (((cfg0.win 5).blk t).view.emb j)
  refine block_clamped (iblk0 V c 0 t) (iblk0 V c 1 t) (iblk0 V c 2 t) (iblk0 V c 3 t) (iblk0 V c 4 t)
    (V c main_arg0) (V c main_v24) (V c main_v25) (V c main_v26) (V c main_v27) t.val ht ?_ ?_ ?_ ?_ ?_ j _ ?_ ?_
  · intro p k
    unfold iblk0
    rw [View.read_apply]
    show V c main_arg0 _ = V c main_arg0 _
    refine congrArg (V c main_arg0) (funext fun a => Fin.ext ?_)
    match a with
    | ⟨0, _⟩ => show win0_0.index t (0 : Fin 2) * 5000 + 1 * p.val = t.val * 5000 + p.val; rw [e00]; omega
    | ⟨1, _⟩ => show win0_0.index t (1 : Fin 2) * 64 + 1 * k.val = k.val; rw [e01]; omega
  · intro p k
    unfold iblk0
    rw [View.read_apply]
    show V c main_v24 _ = V c main_v24 _
    refine congrArg (V c main_v24) (funext fun a => Fin.ext ?_)
    match a with
    | ⟨0, _⟩ => show win0_1.index t (0 : Fin 2) * 5000 + 1 * p.val = t.val * 5000 + p.val; rw [e10]; omega
    | ⟨1, _⟩ => show win0_1.index t (1 : Fin 2) * 64 + 1 * k.val = k.val; rw [e11]; omega
  · funext y
    unfold iblk0
    rw [View.read_apply]
    show V c main_v25 _ = V c main_v25 y
    refine congrArg (V c main_v25) (funext fun a => Fin.ext ?_)
    match a with
    | ⟨0, _⟩ => show win0_2.index t (0 : Fin 2) * 64 + 1 * (y 0).val = (y 0).val; rw [e20]; omega
    | ⟨1, _⟩ => show win0_2.index t (1 : Fin 2) * 64 + 1 * (y 1).val = (y 1).val; rw [e21]; omega
  · funext y
    unfold iblk0
    rw [View.read_apply]
    show V c main_v26 _ = V c main_v26 y
    refine congrArg (V c main_v26) (funext fun a => Fin.ext ?_)
    match a with
    | ⟨0, _⟩ => show win0_3.index t (0 : Fin 2) * 64 + 1 * (y 0).val = (y 0).val; rw [e30]; omega
    | ⟨1, _⟩ => show win0_3.index t (1 : Fin 2) * 64 + 1 * (y 1).val = (y 1).val; rw [e31]; omega
  · funext y
    unfold iblk0
    rw [View.read_apply]
    show V c main_v27 _ = V c main_v27 y
    refine congrArg (V c main_v27) (funext fun a => Fin.ext ?_)
    match a with
    | ⟨0, _⟩ => show win0_4.index t (0 : Fin 2) * 1 + 1 * (y 0).val = (y 0).val; rw [e40]; omega
    | ⟨1, _⟩ => show win0_4.index t (1 : Fin 2) * 64 + 1 * (y 1).val = (y 1).val; rw [e41]; omega
  · show win0_5.index t (0 : Fin 2) * 5000 + 1 * (j 0).val = t.val * 5000 + (j 0).val
    rw [e50]; omega
  · show win0_5.index t (1 : Fin 2) * 64 + 1 * (j 1).val = (j 1).val
    rw [e51]; omega

/-- An index of the result array lies in point t's block iff each coordinate is in the block's range. -/
theorem mem_blk0 (t : Fin cfg0.N) (i : S100000x64.Idx) :
    i ∈ ((cfg0.win 5).blk t).view.set ↔ ∀ a : Fin 2, win0_5.index t a * S5000x64.size a ≤ (i a).val
      ∧ (i a).val < win0_5.index t a * S5000x64.size a + S5000x64.size a := by
  show i ∈ ((View.whole main_v28).slice (win0_5.rect t)).set ↔ _
  rw [View.set_slice_whole, Rect.mem_set_unit]
  exact Iff.rfl

/-- The 20 blocks of 5000 rows tile the 100000 rows: row n is in block n / 5000. -/
theorem cover0 (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : grid0.N = 20 := N_0
  let t : Fin cfg0.N := ⟨(i 0).val / 5000, by show (i 0).val / 5000 < grid0.N; rw [hN]; omega⟩
  obtain ⟨-, -, -, -, -, -, -, -, -, -, e50, e51⟩ := idx_facts0 t
  have htv : t.val = (i 0).val / 5000 := rfl
  refine ⟨t, flush0_5 t, ?_⟩
  rw [mem_blk0]
  intro a
  match a with
  | ⟨0, _⟩ =>
    show win0_5.index t (0 : Fin 2) * 5000 ≤ (i 0).val ∧ (i 0).val < win0_5.index t (0 : Fin 2) * 5000 + 5000
    rw [e50, htv]; omega
  | ⟨1, _⟩ =>
    show win0_5.index t (1 : Fin 2) * 64 ≤ (i 1).val ∧ (i 1).val < win0_5.index t (1 : Fin 2) * 64 + 64
    rw [e51]; omega

/-- REGION 0's RESULT ARRAY: the clamped layer of the arrays the region finds. -/
theorem final0 (c : Dev nD) :
    (dat0 V c).arrAt 5 cfg0.N = linClamped (V c main_arg0) (V c main_v24) (V c main_v25) (V c main_v26) (V c main_v27) :=
  (dat0 V c).arrAt_eq_of_cover 5 _ (fun t _ => flushed0_eq V c t) cover0

/-! ## Region 1 -/

/-- The block of each window at point t: the node arrays' and the result's block is t along the rows, the weights'
    and the bias's the one whole block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem flushed1_eq (c : Dev nD) (t : Fin cfg1.N) :
    (dat1 V c).flushed 5 t = ((cfg1.win 5).blk t).view.read (Elt Ideal)
      (lin (V c main_v28) (V c main_v40) (V c main_v41) (V c main_v42) (V c main_v43)) := by
  show (cfg1.win 5).cut (grid1.coords t) ((dat1 V c).after 5 t) = _
  rw [after1_5]
  unfold out1_5
  rw [View.canon_unit_zero hz]
  simp only [View.ld_unit_zero (S := S5000x64) hz, View.ld_unit_zero (S := S64x64) hz, View.ld_unit_zero (S := S1x64) hz]
  obtain ⟨e00, e01, e10, e11, e20, e21, e30, e31, e40, e41, e50, e51⟩ := idx_facts1 t
  have ht : t.val < 20 := t.isLt
  funext j
  show k1_pay1 (iblk1 V c 0 t) (iblk1 V c 1 t) (iblk1 V c 2 t) (iblk1 V c 3 t) (iblk1 V c 4 t) j
    = lin (V c main_v28) (V c main_v40) (V c main_v41) (V c main_v42) (V c main_v43) (((cfg1.win 5).blk t).view.emb j)
  refine block_plain (iblk1 V c 0 t) (iblk1 V c 1 t) (iblk1 V c 2 t) (iblk1 V c 3 t) (iblk1 V c 4 t)
    (V c main_v28) (V c main_v40) (V c main_v41) (V c main_v42) (V c main_v43) t.val ht ?_ ?_ ?_ ?_ ?_ j _ ?_ ?_
  · intro p k
    unfold iblk1
    rw [View.read_apply]
    show V c main_v28 _ = V c main_v28 _
    refine congrArg (V c main_v28) (funext fun a => Fin.ext ?_)
    match a with
    | ⟨0, _⟩ => show win1_0.index t (0 : Fin 2) * 5000 + 1 * p.val = t.val * 5000 + p.val; rw [e00]; omega
    | ⟨1, _⟩ => show win1_0.index t (1 : Fin 2) * 64 + 1 * k.val = k.val; rw [e01]; omega
  · intro p k
    unfold iblk1
    rw [View.read_apply]
    show V c main_v40 _ = V c main_v40 _
    refine congrArg (V c main_v40) (funext fun a => Fin.ext ?_)
    match a with
    | ⟨0, _⟩ => show win1_1.index t (0 : Fin 2) * 5000 + 1 * p.val = t.val * 5000 + p.val; rw [e10]; omega
    | ⟨1, _⟩ => show win1_1.index t (1 : Fin 2) * 64 + 1 * k.val = k.val; rw [e11]; omega
  · funext y
    unfold iblk1
    rw [View.read_apply]
    show V c main_v41 _ = V c main_v41 y
    refine congrArg (V c main_v41) (funext fun a => Fin.ext ?_)
    match a with
    | ⟨0, _⟩ => show win1_2.index t (0 : Fin 2) * 64 + 1 * (y 0).val = (y 0).val; rw [e20]; omega
    | ⟨1, _⟩ => show win1_2.index t (1 : Fin 2) * 64 + 1 * (y 1).val = (y 1).val; rw [e21]; omega
  · funext y
    unfold iblk1
    rw [View.read_apply]
    show V c main_v42 _ = V c main_v42 y
    refine congrArg (V c main_v42) (funext fun a => Fin.ext ?_)
    match a with
    | ⟨0, _⟩ => show win1_3.index t (0 : Fin 2) * 64 + 1 * (y 0).val = (y 0).val; rw [e30]; omega
    | ⟨1, _⟩ => show win1_3.index t (1 : Fin 2) * 64 + 1 * (y 1).val = (y 1).val; rw [e31]; omega
  · funext y
    unfold iblk1
    rw [View.read_apply]
    show V c main_v43 _ = V c main_v43 y
    refine congrArg (V c main_v43) (funext fun a => Fin.ext ?_)
    match a with
    | ⟨0, _⟩ => show win1_4.index t (0 : Fin 2) * 1 + 1 * (y 0).val = (y 0).val; rw [e40]; omega
    | ⟨1, _⟩ => show win1_4.index t (1 : Fin 2) * 64 + 1 * (y 1).val = (y 1).val; rw [e41]; omega
  · show win1_5.index t (0 : Fin 2) * 5000 + 1 * (j 0).val = t.val * 5000 + (j 0).val
    rw [e50]; omega
  · show win1_5.index t (1 : Fin 2) * 64 + 1 * (j 1).val = (j 1).val
    rw [e51]; omega

/-- An index of the result array lies in point t's block iff each coordinate is in the block's range. -/
theorem mem_blk1 (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v44).slice (win1_5.rect t)).set ↔ _
  rw [View.set_slice_whole, Rect.mem_set_unit]
  exact Iff.rfl

/-- The 20 blocks of 5000 rows tile the 100000 rows: row n is in block n / 5000. -/
theorem cover1 (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  have hN : grid1.N = 20 := N_1
  let t : Fin cfg1.N := ⟨(i 0).val / 5000, by show (i 0).val / 5000 < grid1.N; rw [hN]; omega⟩
  obtain ⟨-, -, -, -, -, -, -, -, -, -, e50, e51⟩ := idx_facts1 t
  have htv : t.val = (i 0).val / 5000 := rfl
  refine ⟨t, flush1_5 t, ?_⟩
  rw [mem_blk1]
  intro a
  match a with
  | ⟨0, _⟩ =>
    show win1_5.index t (0 : Fin 2) * 5000 ≤ (i 0).val ∧ (i 0).val < win1_5.index t (0 : Fin 2) * 5000 + 5000
    rw [e50, htv]; omega
  | ⟨1, _⟩ =>
    show win1_5.index t (1 : Fin 2) * 64 ≤ (i 1).val ∧ (i 1).val < win1_5.index t (1 : Fin 2) * 64 + 64
    rw [e51]; omega

/-- REGION 1's RESULT ARRAY: the layer of the arrays the region finds. -/
theorem final1 (c : Dev nD) :
    (dat1 V c).arrAt 5 cfg1.N = lin (V c main_v28) (V c main_v40) (V c main_v41) (V c main_v42) (V c main_v43) :=
  (dat1 V c).arrAt_eq_of_cover 5 _ (fun t _ => flushed1_eq V c t) cover1

end Cert.KernelIdeal.Region

end
-- ==== Proof.LibSmallF32.lean ====
import Idealize.ShloMosaic.PureOps.Ideal

/-!
# The single-precision patterns of the integers 1 … 9

At the exact instance a float literal denotes the dyadic rational its IEEE pattern spells. For the nine small
integers that multiply an angle (`m·φ`, `m = 1 … 9`) that rational is the integer itself.
-/

noncomputable section

namespace Cert.LibSmallF32

open Idealize.ShloMosaic

theorem f32_1 : Ideal.ofBits .f32 0x3F800000#32 = ((1 : ℝ) : EReal) := by
  simp [Ideal.ofBits, Ideal.ieee, -EReal.coe_mul]; norm_num
theorem f32_2 : Ideal.ofBits .f32 0x40000000#32 = ((2 : ℝ) : EReal) := by
  simp [Ideal.ofBits, Ideal.ieee, -EReal.coe_mul]; norm_num
theorem f32_3 : Ideal.ofBits .f32 0x40400000#32 = ((3 : ℝ) : EReal) := by
  simp [Ideal.ofBits, Ideal.ieee, -EReal.coe_mul]; norm_num
theorem f32_4 : Ideal.ofBits .f32 0x40800000#32 = ((4 : ℝ) : EReal) := by
  simp [Ideal.ofBits, Ideal.ieee, -EReal.coe_mul]; norm_num
theorem f32_5 : Ideal.ofBits .f32 0x40A00000#32 = ((5 : ℝ) : EReal) := by
  simp [Ideal.ofBits, Ideal.ieee, -EReal.coe_mul]; norm_num
theorem f32_6 : Ideal.ofBits .f32 0x40C00000#32 = ((6 : ℝ) : EReal) := by
  simp [Ideal.ofBits, Ideal.ieee, -EReal.coe_mul]; norm_num
theorem f32_7 : Ideal.ofBits .f32 0x40E00000#32 = ((7 : ℝ) : EReal) := by
  simp [Ideal.ofBits, Ideal.ieee, -EReal.coe_mul]; norm_num
theorem f32_8 : Ideal.ofBits .f32 0x41000000#32 = ((8 : ℝ) : EReal) := by
  simp [Ideal.ofBits, Ideal.ieee, -EReal.coe_mul]; norm_num
theorem f32_9 : Ideal.ofBits .f32 0x41100000#32 = ((9 : ℝ) : EReal) := by
  simp [Ideal.ofBits, Ideal.ieee, -EReal.coe_mul]; norm_num

end Cert.LibSmallF32

end
-- ==== Proof.SageSpec.lean ====
/-
  Two rounds of mean aggregation over a graph, each followed by a dense layer: the result entry by entry, and the one
  law of the extended reals that joins the two ways of taking the mean.

  A round replaces every node's features by a NORMALIZED aggregate of its neighbours' features (how the aggregate is
  formed does not matter here: it is a parameter, one function from feature arrays to feature arrays) and then applies
  a dense layer: at node p and output feature q,
      (Σ_k a(p,k) · Wl(q,k) + b(q)) + Σ_k y(p,k) · Wr(q,k),
  a the normalized aggregate, y the node's own features, Wl and Wr the two weight matrices read by rows, b the bias.
  The first round clamps its result at zero from below; the second does not.

  The mean is the sum over the neighbours divided by d = max(deg, 1). One program divides the sum by d, the other
  multiplies it by 1/d. On the extended reals x / d = x · d⁻¹ whenever d ≠ 0, so 1/d = d⁻¹ and the two agree at
  every x, infinite or not; and d ≥ 1 is never zero whatever deg is. The law is lifted here through the two
  broadcasts that spread d over a node's features: both sides read d at the same place.
-/
import Idealize.ShloMosaic.PureOps.Ideal
import Idealize.ShloMosaic.Lib.ValueIdx
import proofs.«109792_j10926396801112_1_alg».proof.Proof.LibSmallF32

noncomputable section

open scoped BigOperators

namespace Cert.Sage

open Idealize.ShloMosaic Idealize.ShloMosaic.ValueIdx

/-- The shapes: node features [100000, 64], a weight matrix [64, 64], a bias [64], one number per node as a vector
    [100000] and as a column [100000, 1], a scalar. -/
abbrev Nodes : Shape := ⟨2, ![100000, 64]⟩
abbrev Sq : Shape := ⟨2, ![64, 64]⟩
abbrev V64 : Shape := ⟨1, ![64]⟩
abbrev PerNode : Shape := ⟨1, ![100000]⟩
abbrev Col : Shape := ⟨2, ![100000, 1]⟩
abbrev Sc : Shape := ⟨0, ![]⟩

/-- The dense layer at node p, output feature q. -/
def denseAt (a y : Nodes.Idx → EReal) (wl wr : Sq.Idx → EReal) (b : V64.Idx → EReal) (p : Fin 100000) (q : Fin 64) : EReal :=
  (∑ k : Fin 64, a (ix2 p k) * wl (ix2 q k) + b (ix1 q)) + ∑ k : Fin 64, y (ix2 p k) * wr (ix2 q k)

/-- The dense layer as an array. -/
def dense (a y : Nodes.Idx → EReal) (wl wr : Sq.Idx → EReal) (b : V64.Idx → EReal) : Nodes.Idx → EReal :=
  fun i => denseAt a y wl wr b (i 0) (i 1)

theorem dense_apply (a y : Nodes.Idx → EReal) (wl wr : Sq.Idx → EReal) (b : V64.Idx → EReal) (p : Fin 100000) (q : Fin 64) :
    dense a y wl wr b (ix2 p q) = denseAt a y wl wr b p q := rfl

/-- The first round: the dense layer of the normalized aggregate, clamped at the f32 zero from below. -/
def hidden (nrm : (Nodes.Idx → EReal) → Nodes.Idx → EReal) (x : Nodes.Idx → EReal) (wl wr : Sq.Idx → EReal)
    (b : V64.Idx → EReal) : Nodes.Idx → EReal :=
  fun i => max (dense (nrm x) x wl wr b i) (Ideal.ofBits .f32 0x00000000#32)

/-- Both rounds. -/
def out (nrm : (Nodes.Idx → EReal) → Nodes.Idx → EReal) (x : Nodes.Idx → EReal) (w1l w1r : Sq.Idx → EReal)
    (b1 : V64.Idx → EReal) (w2l w2r : Sq.Idx → EReal) (b2 : V64.Idx → EReal) : Nodes.Idx → EReal :=
  dense (nrm (hidden nrm x w1l w1r b1)) (hidden nrm x w1l w1r b1) w2l w2r b2

/-- The three terms of a dense layer's entry added with the bias last are the same sum with the bias in the middle:
    addition on the extended reals is commutative and associative at the infinities too. -/
theorem bias_last (A X B : EReal) : (A + X) + B = (A + B) + X := add_right_comm A X B

/-- Dividing by d ≠ 0 is multiplying by 1/d, at every extended real. -/
theorem mul_one_div {s d : EReal} (hd : d ≠ 0) : s * Ideal.div 1 d = Ideal.div s d := by
  rw [Ideal.div, Ideal.div, if_neg hd, if_neg hd, one_mul]

/-- The larger of anything and 1 is not zero. -/
theorem max_one_ne_zero (x : EReal) : max x 1 ≠ 0 :=
  ne_of_gt (lt_of_lt_of_le zero_lt_one (le_max_right x 1))

/-- The f32 word of 1.0 is the extended real 1. -/
theorem one_word : Ideal.ofBits .f32 0x3F800000#32 = (1 : EReal) :=
  Cert.LibSmallF32.f32_1.trans EReal.coe_one

/-- THE TWO MEANS AGREE: the sum array times the broadcast of 1 / max(deg, 1) is the sum array divided by the
    broadcast of max(deg, 1), for any sum array and any degree array. -/
theorem mean_eq (S : FVec Ideal Nodes .f32) (deg : FVec Ideal PerNode .f32)
    (h0 : Sc.BroadcastsInDim PerNode (![] : Fin 0 → Fin 1))
    (h1 : PerNode.BroadcastsInDim Col (![0] : Fin 1 → Fin 2))
    (h2 : Col.BroadcastsInDim Nodes (![0, 1] : Fin 2 → Fin 2)) :
    mulf S (broadcastInDim Nodes ![0, 1] h2 (broadcastInDim Col ![0] h1
      (Host.divf (broadcastInDim PerNode ![] h0 (constant (F := Ideal) Sc .f32 0x3F800000#32))
        (maximumf deg (broadcastInDim PerNode ![] h0 (constant (F := Ideal) Sc .f32 0x3F800000#32))))))
    = Host.divf S (broadcastInDim Nodes ![0, 1] h2 (broadcastInDim Col ![0] h1
        (maximumf deg (broadcastInDim PerNode ![] h0 (constant (F := Ideal) Sc .f32 0x3F800000#32))))) := by
  funext i
  simp only [mulf, Host.divf, maximumf, broadcastInDim, constant, Ideal.mulf_def, Ideal.hostDivf_def,
    Ideal.maximumf_def, Ideal.ofBits_def, one_word]
  exact mul_one_div (max_one_ne_zero _)

end Cert.Sage

end
-- ==== Proof.LayerForms.lean ====
/-
  The kernel's arrangement of a dense layer is the specification's.

  The kernel program hands each region the weight matrices TRANSPOSED and the bias recast as a one-row matrix, and
  the region adds the bias last:  (Σ_k a(n,k)·Wlᵀ(k,q) + Σ_k y(n,k)·Wrᵀ(k,q)) + b(0,q).  A transposed matrix at (k, q)
  is the matrix at (q, k), the recast bias at (0, q) is the bias at q, and the three terms may be added in either
  order on the extended reals. So this is  (Σ_k a(n,k)·Wl(q,k) + b(q)) + Σ_k y(n,k)·Wr(q,k),  the specification's
  entry.
-/
import proofs.«109792_j10926396801112_1_alg».proof.Proof.RegionValue
import proofs.«109792_j10926396801112_1_alg».proof.Proof.SageSpec
import Idealize.ShloMosaic.Lib.ValueLayout

noncomputable section

open scoped BigOperators

namespace Cert.KernelIdeal.Region

open Cert.KernelIdeal Idealize.ShloMosaic Idealize.ShloMosaic.ValueIdx

variable [Cert.KernelIdeal.Facts]
open Cert.KernelIdeal.Facts₀

/-- A transposed weight matrix at (k, q) is the matrix at (q, k). -/
theorem transposed_at (w : S64x64.Idx → EReal) (k q : Fin 64) :
    transpose S64x64 [1, 0] w transposes_S64x64_S64x64_1_0 (ix2 k q) = w (ix2 q k) :=
  transpose_ix2_apply (a := 64) (b := 64) w transposes_S64x64_S64x64_1_0 k q

/-- The bias recast as a one-row matrix, at (0, q), is the bias at q. -/
theorem biasRow_at (b : S64.Idx → EReal) (q : Fin 64) :
    shapeCast S1x64 b shapeCasts_S64_S1x64 (ix2 (0 : Fin 1) q) = b (ix1 q) :=
  shapeCast_a_1a_apply (a := 64) b shapeCasts_S64_S1x64 0 q

/-- The layer over transposed weights and a bias row is the specification's dense layer. -/
theorem lin_eq_dense (y a : S100000x64.Idx → EReal) (wl wr : S64x64.Idx → EReal) (b : S64.Idx → EReal) :
    lin y a (transpose S64x64 [1, 0] wl transposes_S64x64_S64x64_1_0) (transpose S64x64 [1, 0] wr transposes_S64x64_S64x64_1_0)
        (shapeCast S1x64 b shapeCasts_S64_S1x64)
      = Cert.Sage.dense a y wl wr b := by
  funext i
  obtain ⟨p, q, rfl⟩ : ∃ (p : Fin 100000) (q : Fin 64), i = ix2 p q := ⟨i 0, i 1, eq_ix2 i⟩
  rw [Cert.Sage.dense_apply]
  unfold lin Cert.Sage.denseAt
  refine (Cert.Sage.bias_last _ _ _).trans ?_
  refine congrArg₂ (· + ·) (congrArg₂ (· + ·) (Finset.sum_congr rfl fun k _ => ?_) ?_) (Finset.sum_congr rfl fun k _ => ?_)
  · exact congrArg (a (ix2 p k) * ·) (transposed_at wl k q)
  · exact biasRow_at b q
  · exact congrArg (y (ix2 p k) * ·) (transposed_at wr k q)

/-- The clamped layer likewise: the first round of the specification, whatever the mean `nrm` is. -/
theorem linClamped_eq_hidden (nrm : (S100000x64.Idx → EReal) → S100000x64.Idx → EReal) (x : S100000x64.Idx → EReal)
    (wl wr : S64x64.Idx → EReal) (b : S64.Idx → EReal) :
    linClamped x (nrm x) (transpose S64x64 [1, 0] wl transposes_S64x64_S64x64_1_0)
        (transpose S64x64 [1, 0] wr transposes_S64x64_S64x64_1_0) (shapeCast S1x64 b shapeCasts_S64_S1x64)
      = Cert.Sage.hidden nrm x wl wr b := by
  funext i
  unfold linClamped Cert.Sage.hidden
  rw [lin_eq_dense]

end Cert.KernelIdeal.Region

end
-- ==== Proof.KernelValue.lean ====
/-
  The kernel program's result as the specification's two rounds.

  The run ends with the result buffer at what the second region's write-backs leave. That region's result array is
  the (unclamped) layer of the arrays it finds: the first region's result, its mean aggregation, the second pair of
  transposed weights and the second bias row. The first region's result array is the clamped layer of the node
  features, their mean aggregation, the first transposed weights and bias row. Rewriting each array the regions find
  by the host operations' term and each layer by the specification's form gives the two rounds over the kernel's own
  way of taking the mean (the sum times 1/max(deg, 1)).
-/
import proofs.«109792_j10926396801112_1_alg».proof.Proof.HostValue
import proofs.«109792_j10926396801112_1_alg».proof.Proof.RegionValue
import proofs.«109792_j10926396801112_1_alg».proof.Proof.LayerForms
import proofs.«109792_j10926396801112_1_alg».proof.Proof.SageSpec

set_option maxRecDepth 16384

noncomputable section

namespace Cert.KernelIdeal.Hand

open Cert.KernelIdeal Cert.KernelIdeal.Gen Cert.KernelIdeal.Region
open Idealize.ShloMosaic Idealize.ShloMosaic.TcCoe Idealize.SL.Sem

variable (m : (ℓ : Loc nD τ sig) → Buf (Elt Ideal) ℓ) (ρ : Dev nD → PrngReg) (c : Dev nD)

/-- The first region's result, as the second stretch finds it: the specification's first round. -/
theorem hidden_value :
    V3 m ρ c main_v28
      = Cert.Sage.hidden (normedK (m ((c : Thread nD τ).loc main_arg1))) (m ((c : Thread nD τ).loc main_arg0))
          (m ((c : Thread nD τ).loc main_arg2)) (m ((c : Thread nD τ).loc main_arg4)) (m ((c : Thread nD τ).loc main_arg3)) := by
  rw [V3_v28, final0 (V1 m ρ) c, V1_arg0, V1_v24, V1_v25, V1_v26, V1_v27]
  exact linClamped_eq_hidden (normedK (m ((c : Thread nD τ).loc main_arg1))) (m ((c : Thread nD τ).loc main_arg0))
    (m ((c : Thread nD τ).loc main_arg2)) (m ((c : Thread nD τ).loc main_arg4)) (m ((c : Thread nD τ).loc main_arg3))

/-- THE KERNEL PROGRAM'S RESULT: both rounds of the specification, the mean taken the kernel's way. -/
theorem result_value :
    W4 m ρ c (Proc.devRef .tc main_v44)
      = Cert.Sage.out (normedK (m ((c : Thread nD τ).loc main_arg1))) (m ((c : Thread nD τ).loc main_arg0))
          (m ((c : Thread nD τ).loc main_arg2)) (m ((c : Thread nD τ).loc main_arg4)) (m ((c : Thread nD τ).loc main_arg3))
          (m ((c : Thread nD τ).loc main_arg5)) (m ((c : Thread nD τ).loc main_arg7)) (m ((c : Thread nD τ).loc main_arg6)) := by
  have h1 : W4 m ρ c (Proc.devRef .tc main_v44) = (dat1 (V3 m ρ) c).arrAt 5 cfg1.N := W4_arr m ρ c 5
  rw [h1, final1 (V3 m ρ) c, V3_v40, V3_v41, V3_v42, V3_v43, hidden_value]
  unfold Cert.Sage.out
  exact lin_eq_dense _ _ _ _ _

end Cert.KernelIdeal.Hand

end
-- ==== Proof.RefValue.lean ====
/-
  The reference program's result is two rounds of mean aggregation, each followed by a dense layer.

  The reference forms the mean of a feature array y in one way, both times: it gathers the rows of y at the edges'
  sources, adds them into the rows of the edges' destinations, and divides every row by max(deg, 1), deg the number of
  edges that arrive at the node. Called `normed` here, this is one function of the edge list and of y; the second
  round applies it to the first round's result with the same edge list, so the same function appears twice.

  Around the mean everything is read entry by entry. At node p and output feature q a dense layer is
      (Σ_k mean(p,k) · Wl(q,k) + b(q)) + Σ_k y(p,k) · Wr(q,k):
  the program transposes each weight matrix and contracts the feature axis against the transpose's first axis, which
  reads the matrix by rows; the bias is spread over the nodes. The first round is clamped at zero from below.
-/
import proofs.«109792_j10926396801112_1_alg».proof.Proof.Gen.ReferenceIdeal.Read
import proofs.«109792_j10926396801112_1_alg».proof.Proof.SageSpec

noncomputable section

open scoped BigOperators

namespace Cert.ReferenceIdeal.RefValue

open Cert.ReferenceIdeal Cert.ReferenceIdeal.Gen Cert.ReferenceIdeal.Read Idealize.ShloMosaic Idealize.ShloMosaic.TcCoe Idealize.ShloMosaic.ValueIdx

/-- the mean of the neighbours' rows of a feature array y, as the reference forms it: the rows gathered at the edges' sources, summed into the edges' destinations, divided by max(deg, 1) -/
def normed (x1 : (⟨S2x1600000, .i32⟩ : BufTy).Contents (Elt Ideal)) (y : (⟨S100000x64, .f32⟩ : BufTy).Contents (Elt Ideal)) : (⟨S100000x64, .f32⟩ : BufTy).Contents (Elt Ideal) :=
  Host.divf (F := Ideal) (φ := .f32) (Host.scatterAdd (F := Ideal) (φ := .f32) scatter_S100000x64_S1600000x1_S1600000x64_1_0_0_1 (val_main_v15 (F := Ideal)) (val_main_v16 (F := Ideal) x1)
    (Host.gather gather_S100000x64_S1600000x1_S1600000x64_1_0_n_n_0_1_164 y (val_main_v13 (F := Ideal) x1))) (val_main_v21 (F := Ideal) x1)

/-- The first round's mean is the mean of the node features: the same term, once the stages are written out. -/
theorem v22_eq (x0 x1) : val_main_v22 (F := Ideal) x0 x1 = normed x1 x0 := by
  unfold val_main_v22 val_main_v17 val_main_v14 normed
  rfl

/-- The second round's mean is the mean of the first round's result. The program writes the clamped sources, the
    destinations, the zero array and max(deg, 1) out a second time under new names; written out, they are the same
    terms as the first round's. -/
theorem v50_eq (x0 x1 x2 x3 x4) : val_main_v50 (F := Ideal) x0 x1 x2 x3 x4 = normed x1 (val_main_v31 (F := Ideal) x0 x1 x2 x3 x4) := by
  unfold val_main_v50 val_main_v45 val_main_v43 val_main_cst_8 val_main_v44 val_main_v42 val_main_v41 val_main_v40
    val_main_v37 val_main_v36 val_main_c_6 val_main_v39 val_main_v38 val_main_c_7
    val_main_v49 val_main_v48 val_main_v47 val_main_v35 val_main_v33 val_main_cst_5 val_main_v34 val_main_v32 val_main_cst_4
    val_main_v46 val_main_cst_9
  unfold normed val_main_v15 val_main_cst_2 val_main_v16 val_main_v13 val_main_v12
    val_main_v9 val_main_v8 val_main_c val_main_v11 val_main_v10 val_main_c_1
    val_main_v21 val_main_v20 val_main_v19 val_main_v7 val_main_v5 val_main_cst_0 val_main_v6 val_main_v4 val_main_cst
    val_main_v18 val_main_cst_3
  rfl

/-! ## The index maps of the two dense layers, at node p and feature q

A contraction reads its left operand at (p, k); its right operand, a transposed weight matrix, at (k, q), which is the
matrix at (q, k); the bias, spread first over a row and then over the nodes, is read at q. -/

theorem lidx24 (p : Fin 100000) (q k : Fin 64) : lidx_main_v24 (ix2 p q) k = ix2 p k :=
  funext fun a => Fin.ext (by match a with | ⟨0, _⟩ => rfl | ⟨1, _⟩ => rfl)
theorem ridx24 (p : Fin 100000) (q k : Fin 64) : idx_main_v23 (ridx_main_v24 (ix2 p q) k) = ix2 q k :=
  funext fun a => Fin.ext (by match a with | ⟨0, _⟩ => rfl | ⟨1, _⟩ => rfl)
theorem bidx26 (p : Fin 100000) (q : Fin 64) : idx_main_v25 (idx_main_v26 (ix2 p q)) = ix1 q :=
  funext fun a => Fin.ext (by match a with | ⟨0, _⟩ => rfl)
theorem lidx29 (p : Fin 100000) (q k : Fin 64) : lidx_main_v29 (ix2 p q) k = ix2 p k :=
  funext fun a => Fin.ext (by match a with | ⟨0, _⟩ => rfl | ⟨1, _⟩ => rfl)
theorem ridx29 (p : Fin 100000) (q k : Fin 64) : idx_main_v28 (ridx_main_v29 (ix2 p q) k) = ix2 q k :=
  funext fun a => Fin.ext (by match a with | ⟨0, _⟩ => rfl | ⟨1, _⟩ => rfl)
theorem lidx52 (p : Fin 100000) (q k : Fin 64) : lidx_main_v52 (ix2 p q) k = ix2 p k :=
  funext fun a => Fin.ext (by match a with | ⟨0, _⟩ => rfl | ⟨1, _⟩ => rfl)
theorem ridx52 (p : Fin 100000) (q k : Fin 64) : idx_main_v51 (ridx_main_v52 (ix2 p q) k) = ix2 q k :=
  funext fun a => Fin.ext (by match a with | ⟨0, _⟩ => rfl | ⟨1, _⟩ => rfl)
theorem bidx54 (p : Fin 100000) (q : Fin 64) : idx_main_v53 (idx_main_v54 (ix2 p q)) = ix1 q :=
  funext fun a => Fin.ext (by match a with | ⟨0, _⟩ => rfl)
theorem lidx57 (p : Fin 100000) (q k : Fin 64) : lidx_main_v57 (ix2 p q) k = ix2 p k :=
  funext fun a => Fin.ext (by match a with | ⟨0, _⟩ => rfl | ⟨1, _⟩ => rfl)
theorem ridx57 (p : Fin 100000) (q k : Fin 64) : idx_main_v56 (ridx_main_v57 (ix2 p q) k) = ix2 q k :=
  funext fun a => Fin.ext (by match a with | ⟨0, _⟩ => rfl | ⟨1, _⟩ => rfl)

/-- The first round: the dense layer of the mean of the node features and of the node features themselves, clamped at
    zero from below. -/
theorem v31_eq (x0 x1 x2 x3 x4) : val_main_v31 (F := Ideal) x0 x1 x2 x3 x4 = Cert.Sage.hidden (normed x1) x0 x2 x4 x3 := by
  funext i
  obtain ⟨p, q, rfl⟩ : ∃ (p : Fin 100000) (q : Fin 64), i = ix2 p q := ⟨i 0, i 1, eq_ix2 i⟩
  rw [val_main_v31_apply, val_main_v30_apply, val_main_v27_apply, val_main_v24_apply, val_main_v26_apply,
    val_main_v25_apply, val_main_v29_apply, val_main_call0_v0_apply, val_main_call0_cst_apply, v22_eq]
  simp only [val_main_v23_apply, val_main_v28_apply, lidx24, ridx24, bidx26, lidx29, ridx29,
    Ideal.addf_def, Ideal.maximumf_def, Ideal.ofBits_def]
  unfold Cert.Sage.hidden
  rw [Cert.Sage.dense_apply]
  unfold Cert.Sage.denseAt
  rfl

/-- Both rounds: the second dense layer takes the mean of the first round's result and the first round's result. -/
theorem result_eq (x0 x1 x2 x3 x4 x5 x6 x7) :
    val_main_v58 (F := Ideal) x0 x1 x2 x3 x4 x5 x6 x7 = Cert.Sage.out (normed x1) x0 x2 x4 x3 x5 x7 x6 := by
  funext i
  obtain ⟨p, q, rfl⟩ : ∃ (p : Fin 100000) (q : Fin 64), i = ix2 p q := ⟨i 0, i 1, eq_ix2 i⟩
  rw [val_main_v58_apply, val_main_v55_apply, val_main_v52_apply, val_main_v54_apply, val_main_v53_apply,
    val_main_v57_apply, v50_eq, v31_eq]
  simp only [val_main_v51_apply, val_main_v56_apply, lidx52, ridx52, bidx54, lidx57, ridx57, Ideal.addf_def]
  unfold Cert.Sage.out
  rw [Cert.Sage.dense_apply]
  unfold Cert.Sage.denseAt
  rfl

end Cert.ReferenceIdeal.RefValue

end
-- ==== Proof.MeanAgree.lean ====
/-
  The two programs take the same mean.

  Both programs sum, per node, the rows of a feature array at the sources of the node's incoming edges, and both
  count the incoming edges; they do it with the same operations on the same edge list, so the sum array S and the
  degree array deg are the same terms on the two sides. The kernel program multiplies S by the broadcast of
  1 / max(deg, 1), the reference divides S by the broadcast of max(deg, 1). These agree at every entry on the
  extended reals, because max(deg, 1) is never zero (the specification module's law, which needs nothing of S or deg).
-/
import proofs.«109792_j10926396801112_1_alg».proof.Proof.HostValue
import proofs.«109792_j10926396801112_1_alg».proof.Proof.RefValue
import proofs.«109792_j10926396801112_1_alg».proof.Proof.SageSpec

noncomputable section

namespace Cert.Proof.Mean

open Idealize.ShloMosaic

/-- The kernel program's mean of a feature array is the reference's. -/
theorem normedK_eq_normed (e : (⟨Cert.KernelIdeal.S2x1600000, .i32⟩ : BufTy).Contents (Elt Ideal))
    (y : (⟨Cert.KernelIdeal.S100000x64, .f32⟩ : BufTy).Contents (Elt Ideal)) :
    Cert.KernelIdeal.Hand.normedK (F := Ideal) e y = Cert.ReferenceIdeal.RefValue.normed e y := by
  unfold Cert.KernelIdeal.Hand.normedK
  refine (Cert.Sage.mean_eq (Cert.KernelIdeal.Hand.sumsOf (F := Ideal) e y) (Cert.KernelIdeal.Hand.degOf (F := Ideal) e) _ _ _).trans ?_
  unfold Cert.ReferenceIdeal.RefValue.normed Cert.KernelIdeal.Hand.sumsOf Cert.KernelIdeal.Hand.degOf
    Cert.KernelIdeal.Hand.srcWrapped Cert.KernelIdeal.Hand.srcOf Cert.KernelIdeal.Hand.dstOf
  unfold Cert.ReferenceIdeal.Read.val_main_v21 Cert.ReferenceIdeal.Read.val_main_v20 Cert.ReferenceIdeal.Read.val_main_v19
    Cert.ReferenceIdeal.Read.val_main_v18 Cert.ReferenceIdeal.Read.val_main_cst_3 Cert.ReferenceIdeal.Read.val_main_v7
    Cert.ReferenceIdeal.Read.val_main_v6 Cert.ReferenceIdeal.Read.val_main_v5 Cert.ReferenceIdeal.Read.val_main_cst_0
    Cert.ReferenceIdeal.Read.val_main_v4 Cert.ReferenceIdeal.Read.val_main_cst
    Cert.ReferenceIdeal.Read.val_main_v15 Cert.ReferenceIdeal.Read.val_main_cst_2 Cert.ReferenceIdeal.Read.val_main_v16
    Cert.ReferenceIdeal.Read.val_main_v13 Cert.ReferenceIdeal.Read.val_main_v12 Cert.ReferenceIdeal.Read.val_main_v9
    Cert.ReferenceIdeal.Read.val_main_v8 Cert.ReferenceIdeal.Read.val_main_c Cert.ReferenceIdeal.Read.val_main_v11
    Cert.ReferenceIdeal.Read.val_main_v10 Cert.ReferenceIdeal.Read.val_main_c_1
    Cert.ReferenceIdeal.Read.val_main_v3 Cert.ReferenceIdeal.Read.val_main_v2 Cert.ReferenceIdeal.Read.val_main_v1
    Cert.ReferenceIdeal.Read.val_main_v0
  rfl

end Cert.Proof.Mean

end
-- ==== Proof.lean ====
/- The proof of `Cert.Claim` for a two-layer mean-aggregation graph network: a kernel program whose two dense layers
   run as tiled kernels, against a reference that is plain array code.

   Both programs compute, twice over, a mean of neighbours' features followed by a dense layer
       (Σ_k mean(p,k)·Wl(q,k) + b(q)) + Σ_k y(p,k)·Wr(q,k),
   the first clamped at zero. They differ in three places, none of which matters on the extended reals:
   * the mean is the neighbour sum TIMES 1/max(deg,1) in one and the sum DIVIDED BY max(deg,1) in the other — equal
     because max(deg,1) is never zero (Proof/SageSpec.lean, lifted to the arrays in Proof/MeanAgree.lean);
   * the kernel rounds the factors of its products to bfloat16 and accumulates from zero, tile by tile of 5000 rows —
     the identity and a plain sum (Proof/BodyValue.lean, Proof/RegionValue.lean);
   * the bias is added last in one and in the middle in the other — addition is commutative and associative
     (Proof/LayerForms.lean).
   The sums over neighbours (a gather and a scatter-add driven by the edge list) are the same operations on both
   sides and are never opened. No step needs the inputs to be finite, so the precondition is not used.

   The modules: Proof/SageSpec.lean (the specification and the law of the mean), Proof/RefValue.lean (the reference's
   result is the specification), Proof/KernelRun.lean (the kernel program's run with its result buffer named),
   Proof/HostValue.lean (what the host operations before and between the two kernels leave), Proof/BodyValue.lean and
   Proof/RegionValue.lean (what each kernel leaves in its result array), Proof/LayerForms.lean and
   Proof/KernelValue.lean (the kernel program's result is the specification), Proof/MeanAgree.lean, and the claims
   here. -/
import proofs.«109792_j10926396801112_1_alg».proof.Defs
import proofs.«109792_j10926396801112_1_alg».proof.Proof.Gen.Kernel
import proofs.«109792_j10926396801112_1_alg».proof.Proof.Gen.Kernel.Skeleton
import proofs.«109792_j10926396801112_1_alg».proof.Proof.Gen.Kernel.Launch
import proofs.«109792_j10926396801112_1_alg».proof.Proof.Gen.Kernel.Points
import proofs.«109792_j10926396801112_1_alg».proof.Proof.Gen.Kernel.Frame
import proofs.«109792_j10926396801112_1_alg».proof.Proof.Gen.KernelIdeal
import proofs.«109792_j10926396801112_1_alg».proof.Proof.Gen.KernelIdeal.Skeleton
import proofs.«109792_j10926396801112_1_alg».proof.Proof.Gen.KernelIdeal.Launch
import proofs.«109792_j10926396801112_1_alg».proof.Proof.Gen.KernelIdeal.Points
import proofs.«109792_j10926396801112_1_alg».proof.Proof.Gen.KernelIdeal.Frame
import proofs.«109792_j10926396801112_1_alg».proof.Proof.Gen.ReferenceIdeal
import proofs.«109792_j10926396801112_1_alg».proof.Proof.Gen.ReferenceIdeal.Run
import proofs.«109792_j10926396801112_1_alg».proof.Proof.Gen.ReferenceIdeal.Read
import proofs.«109792_j10926396801112_1_alg».proof.Proof.Gen.Pre_finite_inputs
import proofs.«109792_j10926396801112_1_alg».proof.Proof.KernelRun
import proofs.«109792_j10926396801112_1_alg».proof.Proof.KernelValue
import proofs.«109792_j10926396801112_1_alg».proof.Proof.RefValue
import proofs.«109792_j10926396801112_1_alg».proof.Proof.MeanAgree
import Idealize.ShloMosaic.Adequacy
import Idealize.ShloMosaic.Init

noncomputable section

namespace Cert.Proof

open Idealize.ShloMosaic Idealize.SL.Sem

namespace Claims

/-- The word-level kernel program runs and leaves its arguments as launched: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the same result array: the two rounds
    of the specification over the reference's mean, which the kernel program's mean equals. -/
theorem algebraic : Cert.algebraic_KernelIdeal_ReferenceIdeal := by
  intro m ρ m' ρ' _ hagree
  refine ⟨fun c => Cert.Sage.out
      (Cert.ReferenceIdeal.RefValue.normed (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg6)), ?_, ?_⟩
  · refine (θ_run Cert.KernelIdeal.defs _ _).mono (fun _ h c => ⟨(h c).1.trans ?_, (h c).2⟩)
      (Cert.KernelIdeal.Hand.run_named (F := Ideal) m ρ)
    rw [Cert.KernelIdeal.Hand.result_value m ρ c]
    exact congrArg (fun n => Cert.Sage.out n _ _ _ _ _ _ _) (funext fun y => Cert.Proof.Mean.normedK_eq_normed _ y)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v58_eq, Cert.ReferenceIdeal.RefValue.result_eq,
      (hagree c).1, (hagree c).2.1, (hagree c).2.2.1, (hagree c).2.2.2.1, (hagree c).2.2.2.2.1,
      (hagree c).2.2.2.2.2.1, (hagree c).2.2.2.2.2.2.1, (hagree c).2.2.2.2.2.2.2]

end Claims

theorem claim : Cert.Claim :=
  ⟨Cert.Kernel.Gen.facts, Cert.KernelIdeal.Gen.facts, Cert.ReferenceIdeal.Gen.facts, Cert.Pre_finite_inputs.Gen.facts,
    Claims.frame_kernel, Claims.frame_kernelIdeal, Claims.frame_reference, Claims.preserves, Claims.algebraic⟩

end Cert.Proof

end
